-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S262144 : Shape := ⟨1, ![262144]⟩
abbrev S4096 : Shape := ⟨1, ![4096]⟩
abbrev S64 : Shape := ⟨1, ![64]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S262144 : S_.BroadcastsInDim S262144 (![] : Fin 0 → Fin S262144.rank)
  reducesTo_S262144_S_d0 : S262144.ReducesTo [0] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4x2048x4096 .f32) (main_arg1 : IVec S4096x4096 32) (main_arg2 : FVec F S262144 .f32) (main_arg3 : IVec S4096 32) (main_arg4 : FVec F S64 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S262144 : Shape := ⟨1, ![262144]⟩
abbrev S4096 : Shape := ⟨1, ![4096]⟩
abbrev S64 : Shape := ⟨1, ![64]⟩
abbrev S16 : Shape := ⟨1, ![16]⟩
abbrev S16777216 : Shape := ⟨1, ![16777216]⟩
abbrev S_ : Shape := ⟨0, ![]⟩
abbrev S16777216x1 : Shape := ⟨2, ![16777216, 1]⟩
abbrev S262144x64 : Shape := ⟨2, ![262144, 64]⟩
abbrev S262144x1 : Shape := ⟨2, ![262144, 1]⟩
abbrev S4096x1 : Shape := ⟨2, ![4096, 1]⟩
abbrev S64x64 : Shape := ⟨2, ![64, 64]⟩
abbrev S64x1 : Shape := ⟨2, ![64, 1]⟩
abbrev S8192x4096 : Shape := ⟨2, ![8192, 4096]⟩
abbrev S1x4096 : Shape := ⟨2, ![1, 4096]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 42
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S262144, .f32⟩
  | .hbm, ⟨3, _⟩ => ⟨S4096, .i32⟩
  | .hbm, ⟨4, _⟩ => ⟨S64, .f32⟩
  | .hbm, ⟨5, _⟩ => ⟨S16, .f32⟩
  | .hbm, ⟨6, _⟩ => ⟨S16777216, .i32⟩
  | .hbm, ⟨7, _⟩ => ⟨S_, .i32⟩
  | .hbm, ⟨8, _⟩ => ⟨S16777216, .i32⟩
  | .hbm, ⟨9, _⟩ => ⟨S16777216, .i1⟩
  | .hbm, ⟨10, _⟩ => ⟨S_, .i32⟩
  | .hbm, ⟨11, _⟩ => ⟨S16777216, .i32⟩
  | .hbm, ⟨12, _⟩ => ⟨S16777216, .i32⟩
  | .hbm, ⟨13, _⟩ => ⟨S16777216, .i32⟩
  | .hbm, ⟨14, _⟩ => ⟨S16777216x1, .i32⟩
  | .hbm, ⟨15, _⟩ => ⟨S16777216, .f32⟩
  | .hbm, ⟨16, _⟩ => ⟨S262144x64, .f32⟩
  | .hbm, ⟨17, _⟩ => ⟨S262144x1, .f32⟩
  | .hbm, ⟨18, _⟩ => ⟨S262144x64, .f32⟩
  | .hbm, ⟨19, _⟩ => ⟨S262144x64, .f32⟩
  | .hbm, ⟨20, _⟩ => ⟨S4096x4096, .f32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S4096x1, .i32⟩
  | .hbm, ⟨29, _⟩ => ⟨S4096, .f32⟩
  | .hbm, ⟨30, _⟩ => ⟨S64x64, .f32⟩
  | .hbm, ⟨31, _⟩ => ⟨S64x1, .f32⟩
  | .hbm, ⟨32, _⟩ => ⟨S64x64, .f32⟩
  | .hbm, ⟨33, _⟩ => ⟨S64x64, .f32⟩
  | .hbm, ⟨34, _⟩ => ⟨S4096, .f32⟩
  | .hbm, ⟨35, _⟩ => ⟨S4096x4096, .f32⟩
  | .hbm, ⟨36, _⟩ => ⟨S4096x4096, .bf16⟩
  | .hbm, ⟨37, _⟩ => ⟨S8192x4096, .f32⟩
  | .hbm, ⟨38, _⟩ => ⟨S8192x4096, .bf16⟩
  | .hbm, ⟨39, _⟩ => ⟨S1x4096, .f32⟩
  | .hbm, ⟨40, _⟩ => ⟨S8192x4096, .f32⟩
  | .hbm, ⟨41, _⟩ => ⟨S4x2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096x4096_S16777216 : S4096x4096.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S262144x64 : S16777216.ShapeCasts S262144x64
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S4096x4096 : S262144x64.ShapeCasts S4096x4096
  bcast_S_S4096 : S_.BroadcastsInDim S4096 (![] : Fin 0 → Fin S4096.rank)
  bcast_S4096_S4096x1_0 : S4096.BroadcastsInDim S4096x1 (![0] : Fin 1 → Fin S4096x1.rank)
  shapeCasts_S4096_S64x64 : S4096.ShapeCasts S64x64
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S64x64_S4096 : S64x64.ShapeCasts S4096
  transposes_S4096x4096_S4096x4096_1_0 : S4096x4096.Transposes [1, 0] S4096x4096
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  gather_S16_S16777216x1_S16777216_n_0_n_n_0_1_1_wf : GatherDims.WF S16 S16777216x1 S16777216 [] [0] [] [0] [] 1 ![1]
  gather_S16_S4096x1_S4096_n_0_n_n_0_1_1_wf : GatherDims.WF S16 S4096x1 S4096 [] [0] [] [0] [] 1 ![1]
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def gather_S16_S16777216x1_S16777216_n_0_n_n_0_1_1 : GatherDims S16 S16777216x1 S16777216 where
  offsetDims := []
  collapsedSliceDims := [0]
  operandBatchingDims := []
  startIndicesBatchingDims := []
  startIndexMap := [0]
  indexVectorDim := 1
  sliceSizes := ![1]
  wf := gather_S16_S16777216x1_S16777216_n_0_n_n_0_1_1_wf
def gather_S16_S4096x1_S4096_n_0_n_n_0_1_1 : GatherDims S16 S4096x1 S4096 where
  offsetDims := []
  collapsedSliceDims := [0]
  operandBatchingDims := []
  startIndicesBatchingDims := []
  startIndexMap := [0]
  indexVectorDim := 1
  sliceSizes := ![1]
  wf := gather_S16_S4096x1_S4096_n_0_n_n_0_1_1_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v28) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S262144 : Shape := ⟨1, ![262144]⟩
abbrev S4096 : Shape := ⟨1, ![4096]⟩
abbrev S64 : Shape := ⟨1, ![64]⟩
abbrev S16 : Shape := ⟨1, ![16]⟩
abbrev S16777216 : Shape := ⟨1, ![16777216]⟩
abbrev S_ : Shape := ⟨0, ![]⟩
abbrev S16777216x1 : Shape := ⟨2, ![16777216, 1]⟩
abbrev S262144x64 : Shape := ⟨2, ![262144, 64]⟩
abbrev S262144x1 : Shape := ⟨2, ![262144, 1]⟩
abbrev S4096x1 : Shape := ⟨2, ![4096, 1]⟩
abbrev S64x64 : Shape := ⟨2, ![64, 64]⟩
abbrev S64x1 : Shape := ⟨2, ![64, 1]⟩
abbrev S1x1x4096 : Shape := ⟨3, ![1, 1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S262144, .f32⟩
  | .hbm, ⟨3, _⟩ => ⟨S4096, .i32⟩
  | .hbm, ⟨4, _⟩ => ⟨S64, .f32⟩
  | .hbm, ⟨5, _⟩ => ⟨S16, .f32⟩
  | .hbm, ⟨6, _⟩ => ⟨S16777216, .i32⟩
  | .hbm, ⟨7, _⟩ => ⟨S_, .i32⟩
  | .hbm, ⟨8, _⟩ => ⟨S16777216, .i32⟩
  | .hbm, ⟨9, _⟩ => ⟨S16777216, .i1⟩
  | .hbm, ⟨10, _⟩ => ⟨S_, .i32⟩
  | .hbm, ⟨11, _⟩ => ⟨S16777216, .i32⟩
  | .hbm, ⟨12, _⟩ => ⟨S16777216, .i32⟩
  | .hbm, ⟨13, _⟩ => ⟨S16777216, .i32⟩
  | .hbm, ⟨14, _⟩ => ⟨S16777216x1, .i32⟩
  | .hbm, ⟨15, _⟩ => ⟨S16777216, .f32⟩
  | .hbm, ⟨16, _⟩ => ⟨S262144x64, .f32⟩
  | .hbm, ⟨17, _⟩ => ⟨S262144x1, .f32⟩
  | .hbm, ⟨18, _⟩ => ⟨S262144x64, .f32⟩
  | .hbm, ⟨19, _⟩ => ⟨S262144x64, .f32⟩
  | .hbm, ⟨20, _⟩ => ⟨S4096x4096, .f32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S4096x1, .i32⟩
  | .hbm, ⟨29, _⟩ => ⟨S4096, .f32⟩
  | .hbm, ⟨30, _⟩ => ⟨S64x64, .f32⟩
  | .hbm, ⟨31, _⟩ => ⟨S64x1, .f32⟩
  | .hbm, ⟨32, _⟩ => ⟨S64x64, .f32⟩
  | .hbm, ⟨33, _⟩ => ⟨S64x64, .f32⟩
  | .hbm, ⟨34, _⟩ => ⟨S4096, .f32⟩
  | .hbm, ⟨35, _⟩ => ⟨S4x2048x4096, .f32⟩
  | .hbm, ⟨36, _⟩ => ⟨S1x1x4096, .f32⟩
  | .hbm, ⟨37, _⟩ => ⟨S4x2048x4096, .f32⟩
  | .hbm, ⟨38, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  shapeCasts_S4096x4096_S16777216 : S4096x4096.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S262144x64 : S16777216.ShapeCasts S262144x64
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S4096x4096 : S262144x64.ShapeCasts S4096x4096
  bcast_S_S4096 : S_.BroadcastsInDim S4096 (![] : Fin 0 → Fin S4096.rank)
  bcast_S4096_S4096x1_0 : S4096.BroadcastsInDim S4096x1 (![0] : Fin 1 → Fin S4096x1.rank)
  shapeCasts_S4096_S64x64 : S4096.ShapeCasts S64x64
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S64x64_S4096 : S64x64.ShapeCasts S4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S16_S16777216x1_S16777216_n_0_n_n_0_1_1_wf : GatherDims.WF S16 S16777216x1 S16777216 [] [0] [] [0] [] 1 ![1]
  gather_S16_S4096x1_S4096_n_0_n_n_0_1_1_wf : GatherDims.WF S16 S4096x1 S4096 [] [0] [] [0] [] 1 ![1]
  dot_S4x2048x4096_S4096x4096_S4x2048x4096_2_1_01_0_n_n_wf : DotDims.WF S4x2048x4096 S4096x4096 S4x2048x4096 [2] [1] [0, 1] [0] [] []

variable [Facts₀]

def gather_S16_S16777216x1_S16777216_n_0_n_n_0_1_1 : GatherDims S16 S16777216x1 S16777216 where
  offsetDims := []
  collapsedSliceDims := [0]
  operandBatchingDims := []
  startIndicesBatchingDims := []
  startIndexMap := [0]
  indexVectorDim := 1
  sliceSizes := ![1]
  wf := gather_S16_S16777216x1_S16777216_n_0_n_n_0_1_1_wf
def gather_S16_S4096x1_S4096_n_0_n_n_0_1_1 : GatherDims S16 S4096x1 S4096 where
  offsetDims := []
  collapsedSliceDims := [0]
  operandBatchingDims := []
  startIndicesBatchingDims := []
  startIndexMap := [0]
  indexVectorDim := 1
  sliceSizes := ![1]
  wf := gather_S16_S4096x1_S4096_n_0_n_n_0_1_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What the kernel body leaves behind at one grid point, as values.

  The body keeps a running block `acc` of the product in a scratch buffer. At a point whose contraction step is the
  first one it clears `acc` to the zero block and then adds the step's partial product `a · b` of the two input
  blocks; at a later step it adds the partial product to what the step before left. At the last step it also writes
  `acc + bias` (the bias row repeated down the rows) into the output block. Each lemma below reads one of these
  buffers back as the body's arithmetic applied to the point's input blocks, for any float instance.
-/
import proofs.«176535_j70866960384115_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Every access of the body is at offsets (0, 0): it covers its whole buffer. -/
theorem hz : (![0, 0] : Fin 2 → Nat) = fun _ => 0 := funext fun a => by fin_cases a <;> rfl

/-- A later contraction step: the scratch ends at what it held, `xs0`, plus the step's partial product of the input
    blocks `x0` and `x1`. -/
theorem scratch_B (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg7.read_unread, harg3.read_unread, harg4.read_unread, View.ld_unit_zero (S := S1024x1024) hz, View.ld_unit_zero (S := S1024x2048) hz, View.ld_unit_zero (S := S2048x1024) hz]

/-- The last contraction step: the output block ends at the updated scratch plus the bias row `x2` repeated down the
    rows. -/
theorem out_B (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (x2 : Vec F S1x1024 .f32) (xs0 : Vec F S1024x1024 .f32) :
    out0_B_3 c i arg3 harg3 arg4 harg4 arg5 harg5 arg6 harg6 arg7 harg7 hc0 hc1 x0 x1 x2 xs0 = k0_pay3 (k0_pay2 xs0 x0 x1) x2 := by
  unfold out0_B_3
  rw [View.read_writes_eq_canon _ _ _ (cover0_B_3 c i arg3 harg3 arg4 harg4 arg5 harg5 arg6 harg6 arg7 harg7 hc0 hc1 x0 x1 x2 xs0)]
  unfold kernelRun0_B
  dsimp only
  sl_unfold_words
  rw [View.canon_unit_zero hz, View.readCov_unit_zero (S := S1024x1024) _ hz]
  simp only [View.readAt_eq_ld, harg7.read_unread, harg3.read_unread, harg4.read_unread, harg5.read_unread, View.ld_unit_zero (S := S1024x1024) hz, View.ld_unit_zero (S := S1024x2048) hz, View.ld_unit_zero (S := S2048x1024) hz, View.ld_unit_zero (S := S1x1024) hz]

/-- The first contraction step: the scratch is cleared to the zero block, read back, and ends at the zero block plus
    the step's partial product. -/
theorem scratch_A (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S2048x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x2048) hz, View.ld_unit_zero (S := S2048x1024) hz]

end Cert.KernelIdeal.Pieces

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.Spec.lean ====
/-
  The linear layer's result as one function of the arrays, entry by entry, on the extended reals.

  For an input matrix `X` (8192 rows, 4096 features), a weight `Wt` stored features-by-outputs and a bias row `B`,
  the kernel computes row `r`, output `n` as

      ((0 + ∑_{k < 2048} X(r, k) · Wt(k, n)) + ∑_{k < 2048} X(r, 2048 + k) · Wt(2048 + k, n)) + B(0, n):

  the contraction is taken in two halves of 2048 features, the first added to a cleared accumulator and the second
  to that. Addition of extended reals is commutative and associative with `0` neutral, so this is the one sum over
  all 4096 features plus the bias (`linear_eq_sum`); no entry has to be finite.
-/
import Idealize.ShloMosaic.PureOps.Ideal
import Idealize.ShloMosaic.Lib.ValueIdx

noncomputable section

open scoped BigOperators

namespace Cert.Spec

open Idealize.ShloMosaic Idealize.ShloMosaic.ValueIdx

/-- Feature `k` of the first half of the contraction range. -/
def lo (k : Fin 2048) : Fin 4096 := ⟨k.val, by have := k.isLt; omega⟩
/-- Feature `2048 + k`, of the second half. -/
def hi (k : Fin 2048) : Fin 4096 := ⟨2048 + k.val, by have := k.isLt; omega⟩
/-- Row `p` of row block `i` (blocks of 1024 rows). -/
def row (i : Fin 8) (p : Fin 1024) : Fin 8192 := ⟨i.val * 1024 + p.val, by have := i.isLt; have := p.isLt; omega⟩
/-- Column `q` of column block `i` (blocks of 1024 columns). -/
def col (i : Fin 4) (q : Fin 1024) : Fin 4096 := ⟨i.val * 1024 + q.val, by have := i.isLt; have := q.isLt; omega⟩

/-- The kernel's value at row `r`, output `n`: the two half contractions accumulated in order, plus the bias. -/
def linear (X : (⟨2, ![8192, 4096]⟩ : Shape).Idx → EReal) (Wt : (⟨2, ![4096, 4096]⟩ : Shape).Idx → EReal)
    (B : (⟨2, ![1, 4096]⟩ : Shape).Idx → EReal) (r : Fin 8192) (n : Fin 4096) : EReal :=
  ((0 + ∑ k : Fin 2048, X (ix2 r (lo k)) * Wt (ix2 (lo k) n)) + ∑ k : Fin 2048, X (ix2 r (hi k)) * Wt (ix2 (hi k) n))
    + B (ix2 (0 : Fin 1) n)

/-- A sum over 4096 features is the sum over the first 2048 plus the sum over the last 2048. -/
theorem sum_halves (f : Fin 4096 → EReal) : ∑ k : Fin 4096, f k = ∑ k : Fin 2048, f (lo k) + ∑ k : Fin 2048, f (hi k) := by
  have h := Fin.sum_univ_add (M := EReal) (a := 2048) (b := 2048) f
  refine h.trans ?_
  refine congrArg₂ (· + ·) (Finset.sum_congr rfl fun k _ => congrArg f (Fin.ext rfl))
    (Finset.sum_congr rfl fun k _ => congrArg f (Fin.ext rfl))

/-- The two halves accumulated in order are the whole contraction. -/
theorem linear_eq_sum (X : (⟨2, ![8192, 4096]⟩ : Shape).Idx → EReal) (Wt : (⟨2, ![4096, 4096]⟩ : Shape).Idx → EReal)
    (B : (⟨2, ![1, 4096]⟩ : Shape).Idx → EReal) (r : Fin 8192) (n : Fin 4096) :
    linear X Wt B r n = (∑ k : Fin 4096, X (ix2 r k) * Wt (ix2 k n)) + B (ix2 (0 : Fin 1) n) := by
  unfold linear
  rw [zero_add, sum_halves fun k => X (ix2 r k) * Wt (ix2 k n)]

end Cert.Spec

end
-- ==== Proof.Entry.lean ====
/-
  The body's arithmetic read at one entry, on the extended reals.

  With `a` a block of 1024 rows and 2048 contraction columns of the left operand and `b` the matching block of the
  right operand, one contraction step turns a running block `acc` into `acc + a · b`: at entry (p, q) that is
  `acc(p, q) + ∑ₖ a(p, k) · b(k, q)`. The cleared block is zero everywhere, and the last step adds the bias row's
  entry `q` to every row.
-/
import proofs.«176535_j70866960384115_1_alg».proof.Proof.Gen.KernelIdeal.Skeleton
import proofs.«176535_j70866960384115_1_alg».proof.Proof.LibPlainDot
import proofs.«176535_j70866960384115_1_alg».proof.Proof.Spec
import Idealize.ShloMosaic.Lib.Pipeline.Value
import Idealize.ShloMosaic.Lib.ValueLayout

noncomputable section

open Idealize.ShloMosaic Idealize.ShloMosaic.ValueIdx

namespace Cert.KernelIdeal.Entry

open Cert.KernelIdeal Cert.KernelIdeal.Gen

/-- The kernel's record of its product's dimension numbers is the plain rows-by-columns one. -/
theorem dims_plain : dot_S1024x2048_S2048x1024_S1024x1024_1_0_0_1_n_n = DotDims.plain 1024 2048 1024 := rfl

/-- The cleared block is zero at every entry. -/
theorem cleared_apply (j : S1024x1024.Idx) : (k0_pay1 (F := Ideal)) j = 0 := by
  unfold k0_pay1
  rw [shapeCast_self]
  exact Ideal.ofBits_zero_f32

/-- One contraction step at entry (p, q): the running block's entry plus the sum over the step's 2048 contraction
    positions of the operands' products. -/
theorem step_apply (acc : Vec Ideal S1024x1024 .f32) (a : Vec Ideal S1024x2048 .bf16) (b : Vec Ideal S2048x1024 .bf16)
    (p q : Fin 1024) :
    k0_pay2 acc a b (ix2 p q) = acc (ix2 p q) + ∑ k : Fin 2048, a (ix2 p k) * b (ix2 k q) := by
  unfold k0_pay2
  rw [shapeCast_self, shapeCast_self, shapeCast_self]
  exact congrArg (acc (ix2 p q) + ·) (Cert.Lib.PlainDot.matmul_zero_apply (M := 1024) (K := 2048) (N := 1024) none a b p q)

/-- The last step's output at entry (p, q): the running block's entry plus the bias row's entry q. -/
theorem biased_apply (acc : Vec Ideal S1024x1024 .f32) (bias : Vec Ideal S1x1024 .f32) (p q : Fin 1024) :
    k0_pay3 acc bias (ix2 p q) = acc (ix2 p q) + bias (ix2 (0 : Fin 1) q) := by
  unfold k0_pay3
  rw [shapeCast_self]
  exact congrArg (acc (ix2 p q) + ·) (broadcastTo_1b_ab_apply (a := 1024) (b := 1024) bias broadcasts_S1x1024_S1024x1024 p q)

open Cert.Spec in
/-- The output block of row block `i0`, column block `i1`, at its entry (p, q): when the two steps' left blocks are
    the two feature halves of rows `i0` of `X`, the right blocks the two feature halves of columns `i1` of `Wt`, and
    the bias block columns `i1` of `B`, the body's two steps and the bias leave `linear X Wt B` at row
    `i0 · 1024 + p`, output `i1 · 1024 + q`. -/
theorem block_value (X : (⟨2, ![8192, 4096]⟩ : Shape).Idx → EReal) (Wt : (⟨2, ![4096, 4096]⟩ : Shape).Idx → EReal)
    (B : (⟨2, ![1, 4096]⟩ : Shape).Idx → EReal)
    (a0 a1 : Vec Ideal S1024x2048 .bf16) (b0 b1 : Vec Ideal S2048x1024 .bf16) (bias : Vec Ideal S1x1024 .f32)
    (i0 : Fin 8) (i1 : Fin 4)
    (ha0 : ∀ (p : Fin 1024) (k : Fin 2048), a0 (ix2 p k) = X (ix2 (row i0 p) (lo k)))
    (ha1 : ∀ (p : Fin 1024) (k : Fin 2048), a1 (ix2 p k) = X (ix2 (row i0 p) (hi k)))
    (hb0 : ∀ (k : Fin 2048) (q : Fin 1024), b0 (ix2 k q) = Wt (ix2 (lo k) (col i1 q)))
    (hb1 : ∀ (k : Fin 2048) (q : Fin 1024), b1 (ix2 k q) = Wt (ix2 (hi k) (col i1 q)))
    (hbias : ∀ q : Fin 1024, bias (ix2 (0 : Fin 1) q) = B (ix2 (0 : Fin 1) (col i1 q)))
    (p q : Fin 1024) :
    k0_pay3 (k0_pay2 (k0_pay2 (k0_pay1 (F := Ideal)) a0 b0) a1 b1) bias (ix2 p q) = linear X Wt B (row i0 p) (col i1 q) := by
  rw [biased_apply, step_apply, step_apply, cleared_apply, hbias]
  unfold linear
  simp only [ha0, ha1, hb0, hb1]

end Cert.KernelIdeal.Entry

end
-- ==== Proof.KernelValue.lean ====
/-
  The kernel's result array as one function of the arrays the launch finds.

  The grid is 8 row blocks × 4 column blocks × 2 contraction steps, the step fastest. For one (row block, column
  block) the first step clears the running block and adds the partial product over features 0 … 2047, the second
  adds the partial product over features 2048 … 4095 and writes the running block plus the bias columns back. Reading
  each point's input blocks where the index maps place them in the arrays, the block written back at the second step
  is the corresponding block of `Spec.linear` of the three arrays (`flushed_eq`); the 32 written blocks tile the
  8192 × 4096 result (`final`), which the host then reshapes to batch × position × output (`tail_eq`).
-/
import proofs.«176535_j70866960384115_1_alg».proof.Proof.Pieces
import proofs.«176535_j70866960384115_1_alg».proof.Proof.Entry
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.Spec

variable (m : (ℓ : Loc nD τ sig) → Buf (Elt Ideal) ℓ) (ρ : Dev nD → PrngReg)

/-- The printed index maps over the 8 × 4 × 2 grid, the last axis (the contraction step) fastest: at point `t` the row
    block is `t / 8`, the column block `t / 2 % 4` and the step `t % 2`. -/
theorem idx_facts : ∀ t : Fin cfg0.N,
    win0_0.index t (0 : Fin 2) = t.val / 8 ∧ win0_0.index t (1 : Fin 2) = t.val % 2
    ∧ win0_1.index t (0 : Fin 2) = t.val % 2 ∧ win0_1.index t (1 : Fin 2) = t.val / 2 % 4
    ∧ win0_2.index t (0 : Fin 2) = 0 ∧ win0_2.index t (1 : Fin 2) = t.val / 2 % 4
    ∧ win0_3.index t (0 : Fin 2) = t.val / 8 ∧ win0_3.index t (1 : Fin 2) = t.val / 2 % 4 :=
  (by decide +kernel : ∀ t : Fin grid0.N, _)

/-- The point before `t`. -/
abbrev prev (t : Fin cfg0.N) : Fin cfg0.N := ⟨t.val - 1, Nat.lt_of_le_of_lt (Nat.sub_le _ _) t.isLt⟩

/-- After a first contraction step the scratch holds the cleared block plus the step's partial product. -/
theorem acc_first (c : Dev nD) (t : Fin cfg0.N) (h0 : t.val % 2 = 0) :
    (outsAt0 m c t.val t.isLt).2 = k0_pay2 (k0_pay1 (F := Ideal)) (iblk m c 0 t) (iblk m c 1 t) := by
  have h1 : ¬ t.val % 2 = 1 := by omega
  rw [outsAt0_A m c t h0 h1]
  dsimp only
  exact Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- After a last contraction step the output block holds both steps' partial products, accumulated from the cleared
    block in order, plus the bias. -/
theorem out_last (c : Dev nD) (t : Fin cfg0.N) (h1 : t.val % 2 = 1) :
    (outsAt0 m c t.val t.isLt).1 = k0_pay3 (k0_pay2 (k0_pay2 (k0_pay1 (F := Ideal)) (iblk m c 0 (prev t)) (iblk m c 1 (prev t))) (iblk m c 0 t) (iblk m c 1 t)) (iblk m c 2 t) := by
  have h0 : ¬ t.val % 2 = 0 := by omega
  rw [outsAt0_B m c t h0 h1]
  dsimp only
  refine (Pieces.out_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).trans ?_
  rw [show (outsAt0 m c (t.val - 1) (Nat.lt_of_le_of_lt (Nat.sub_le _ _) t.isLt)).2 = _ from acc_first m c (prev t) (by show (t.val - 1) % 2 = 0; omega)]

/-- The left operand's block at point `t`, entry (p, k), is the array at row `(block row) · 1024 + p`, feature
    `(step) · 2048 + k`. -/
theorem read0 (c : Dev nD) (t : Fin cfg0.N) (p : Fin 1024) (k : Fin 2048) (r : Fin 8192) (f : Fin 4096)
    (hr : r.val = win0_0.index t (0 : Fin 2) * 1024 + p.val) (hf : f.val = win0_0.index t (1 : Fin 2) * 2048 + k.val) :
    iblk m c 0 t (ix2 p k) = V m c main_v28 (ix2 r f) := by
  show V m c main_v28 (((cfg0.win 0).blk t).view.emb (ix2 p k)) = V m c main_v28 (ix2 r f)
  refine congrArg (V m c main_v28) (funext fun a => Fin.ext ?_)
  match a with
  | ⟨0, _⟩ => show win0_0.index t (0 : Fin 2) * 1024 + 1 * p.val = r.val; omega
  | ⟨1, _⟩ => show win0_0.index t (1 : Fin 2) * 2048 + 1 * k.val = f.val; omega

/-- The right operand's block at point `t`, entry (k, q), is the array at feature `(step) · 2048 + k`, output
    `(block column) · 1024 + q`. -/
theorem read1 (c : Dev nD) (t : Fin cfg0.N) (k : Fin 2048) (q : Fin 1024) (f : Fin 4096) (n : Fin 4096)
    (hf : f.val = win0_1.index t (0 : Fin 2) * 2048 + k.val) (hn : n.val = win0_1.index t (1 : Fin 2) * 1024 + q.val) :
    iblk m c 1 t (ix2 k q) = V m c main_v26 (ix2 f n) := by
  show V m c main_v26 (((cfg0.win 1).blk t).view.emb (ix2 k q)) = V m c main_v26 (ix2 f n)
  refine congrArg (V m c main_v26) (funext fun a => Fin.ext ?_)
  match a with
  | ⟨0, _⟩ => show win0_1.index t (0 : Fin 2) * 2048 + 1 * k.val = f.val; omega
  | ⟨1, _⟩ => show win0_1.index t (1 : Fin 2) * 1024 + 1 * q.val = n.val; omega

/-- The bias row's block at point `t`, entry (0, q), is the row at output `(block column) · 1024 + q`. -/
theorem read2 (c : Dev nD) (t : Fin cfg0.N) (q : Fin 1024) (n : Fin 4096)
    (h0 : win0_2.index t (0 : Fin 2) = 0) (hn : n.val = win0_2.index t (1 : Fin 2) * 1024 + q.val) :
    iblk m c 2 t (ix2 (0 : Fin 1) q) = V m c main_v29 (ix2 (0 : Fin 1) n) := by
  show V m c main_v29 (((cfg0.win 2).blk t).view.emb (ix2 (0 : Fin 1) q)) = V m c main_v29 (ix2 (0 : Fin 1) n)
  refine congrArg (V m c main_v29) (funext fun a => Fin.ext ?_)
  match a with
  | ⟨0, _⟩ => show win0_2.index t (0 : Fin 2) * 1 + 1 * 0 = 0; omega
  | ⟨1, _⟩ => show win0_2.index t (1 : Fin 2) * 1024 + 1 * q.val = n.val; omega

/-- The kernel's whole result array: `linear` of the three arrays the region finds, entry by entry. -/
def wholeArr (c : Dev nD) : Buf (Elt Ideal) ((c : Thread nD τ).loc main_v30) :=
  fun j => linear (V m c main_v28) (V m c main_v26) (V m c main_v29) (j 0) (j 1)

/-- What a last contraction step writes back is its block of `wholeArr`. -/
theorem flushed_eq (c : Dev nD) (t : Fin cfg0.N) (hf : (cfg0.win 3).flush t = true) :
    (dats m 0 c).flushed 3 t = ((cfg0.win 3).blk t).view.read (Elt Ideal) (wholeArr m c) := by
  have h1 : t.val % 2 = 1 := (flush0_3 t).mp hf
  have hN : t.val < 64 := lt_of_lt_of_eq t.isLt (show cfg0.N = 64 from N_0)
  obtain ⟨e00, e01, e10, e11, e20, e21, e30, e31⟩ := idx_facts t
  obtain ⟨f00, f01, f10, f11, -, -, -, -⟩ := idx_facts (prev t)
  have hp : (prev t).val = t.val - 1 := rfl
  show (cfg0.win 3).cut (grid0.coords t) ((dats m 0 c).after 3 t) = _
  rw [after0_3, out_last m c t h1]
  funext j
  obtain ⟨p, q, rfl⟩ : ∃ (p q : Fin 1024), j = ix2 p q := ⟨j 0, j 1, eq_ix2 j⟩
  show k0_pay3 (k0_pay2 (k0_pay2 (k0_pay1 (F := Ideal)) (iblk m c 0 (prev t)) (iblk m c 1 (prev t))) (iblk m c 0 t) (iblk m c 1 t)) (iblk m c 2 t) (ix2 p q)
      = wholeArr m c (((cfg0.win 3).blk t).view.emb (ix2 p q))
  refine (Entry.block_value (V m c main_v28) (V m c main_v26) (V m c main_v29)
    (iblk m c 0 (prev t)) (iblk m c 0 t) (iblk m c 1 (prev t)) (iblk m c 1 t) (iblk m c 2 t)
    ⟨t.val / 8, by omega⟩ ⟨t.val / 2 % 4, by omega⟩
    (fun p k => read0 m c (prev t) p k _ _ (by show t.val / 8 * 1024 + p.val = _; rw [f00, hp]; omega) (by show k.val = _; rw [f01, hp]; omega))
    (fun p k => read0 m c t p k _ _ (by show t.val / 8 * 1024 + p.val = _; rw [e00]) (by show 2048 + k.val = _; rw [e01]; omega))
    (fun k q => read1 m c (prev t) k q _ _ (by show k.val = _; rw [f10, hp]; omega) (by show t.val / 2 % 4 * 1024 + q.val = _; rw [f11, hp]; omega))
    (fun k q => read1 m c t k q _ _ (by show 2048 + k.val = _; rw [e10]; omega) (by show t.val / 2 % 4 * 1024 + q.val = _; rw [e11]))
    (fun q => read2 m c t q _ e20 (by show t.val / 2 % 4 * 1024 + q.val = _; rw [e21]))
    p q).trans ?_
  exact congrArg₂ (linear (V m c main_v28) (V m c main_v26) (V m c main_v29))
    (Fin.ext (by show t.val / 8 * 1024 + p.val = win0_3.index t (0 : Fin 2) * 1024 + 1 * p.val; rw [e30]; omega))
    (Fin.ext (by show t.val / 2 % 4 * 1024 + q.val = win0_3.index t (1 : Fin 2) * 1024 + 1 * q.val; rw [e31]; omega))

/-- An entry of the result array is in point `t`'s output block iff each coordinate is in the block's range. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v30).slice (win0_3.rect t)).set ↔ _
  rw [View.set_slice_whole, Rect.mem_set_unit]
  exact Iff.rfl

/-- The result array after the region: every entry (r, n) lies in the block written back at the last step of row
    block `r / 1024`, column block `n / 1024`, so the array is `wholeArr`. -/
theorem final (c : Dev nD) : (dats m 0 c).arrAt 3 cfg0.N = wholeArr m c :=
  (dats m 0 c).arrAt_eq_of_cover 3 (wholeArr m c) (flushed_eq m c) fun i => by
    have h0 : (i 0).val < 8192 := (i 0).isLt
    have h1 : (i 1).val < 4096 := (i 1).isLt
    have hN : cfg0.N = 64 := N_0
    obtain ⟨t, ht⟩ : ∃ t : Fin cfg0.N, t.val = (i 0).val / 1024 * 8 + (i 1).val / 1024 * 2 + 1 :=
      ⟨⟨(i 0).val / 1024 * 8 + (i 1).val / 1024 * 2 + 1, by rw [hN]; omega⟩, rfl⟩
    obtain ⟨-, -, -, -, -, -, e30, e31⟩ := idx_facts t
    refine ⟨t, (flush0_3 t).mpr (by omega), ?_⟩
    rw [mem_blk]
    intro a
    match a with
    | ⟨0, _⟩ =>
      show win0_3.index t (0 : Fin 2) * 1024 ≤ (i 0).val ∧ (i 0).val < win0_3.index t (0 : Fin 2) * 1024 + 1024
      rw [e30]; omega
    | ⟨1, _⟩ =>
      show win0_3.index t (1 : Fin 2) * 1024 ≤ (i 1).val ∧ (i 1).val < win0_3.index t (1 : Fin 2) * 1024 + 1024
      rw [e31]; omega

/-- The program's result buffer: the host's reshape of the region's result array to batch × position × output. -/
theorem tail_eq (c : Dev nD) :
    Pipeline.afterTail₀ cfgs (dats m) 0 (V0 m) [hostOps1] c main_v31
      = shapeCast S4x2048x4096 (wholeArr m c) shapeCasts_S8192x4096_S4x2048x4096 := by
  unfold Pipeline.afterTail₀
  show StableHlo.after hostOps1 _ (Proc.devRef .tc main_v31) = _
  after_results
  have hw : Pipeline.withArrays (cfgs 0).spec c (V0 m c) (fun w => (dats m 0 c).arrAt w (cfgs 0).N) (Proc.devRef .tc main_v30)
      = wholeArr m c :=
    (Pipeline.withArrays_arr spec0 launch0.win.arr_inj c (V0 m c) (fun w => (dats m 0 c).arrAt w cfg0.N) 3).trans (final m c)
  show (fun i => shapeCast S4x2048x4096
      (Pipeline.withArrays (cfgs 0).spec c (V0 m c) (fun w => (dats m 0 c).arrAt w (cfgs 0).N) (Proc.devRef .tc main_v30))
      shapeCasts_S8192x4096_S4x2048x4096 i) = _
  rw [hw]

end Cert.KernelIdeal.Value

end
-- ==== Proof.Dequant.lean ====
/-
  The dequantized weight and bias, as functions of their codes and block scales.

  A code indexes a sixteen-entry table of quantization levels (a negative code is first moved up by sixteen); the
  looked-up values, taken in runs of 64 consecutive entries, are each multiplied by their run's scale. Both programs
  build their weight and their bias by these same host operations, so the proof carries the two arrays as these
  functions and never looks inside them.
-/
import proofs.«176535_j70866960384115_1_alg».proof.Proof.Gen.ReferenceIdeal

noncomputable section

namespace Cert.ReferenceIdeal.Hand

open Cert.ReferenceIdeal Cert.ReferenceIdeal.Gen Idealize.ShloMosaic

variable {F : FTy → Type} [FloatOps F]

/-- The sixteen-entry table of quantization levels. -/
def table : (⟨S16, .f32⟩ : BufTy).Contents (Elt F) := fun i => FloatOps.ofBits .f32 (lit0 (S16.rowMajor i))

/-- The weight's codes as one long vector, a negative code moved up by sixteen. -/
def weightCodes (codes : (⟨S4096x4096, .i32⟩ : BufTy).Contents (Elt F)) : (⟨S16777216, .i32⟩ : BufTy).Contents (Elt F) :=
  select (cmpi .slt (shapeCast S16777216 codes shapeCasts_S4096x4096_S16777216) (broadcastInDim S16777216 ![] bcast_S_S16777216 (constantI S_ 32 0#32)))
    (addi (shapeCast S16777216 codes shapeCasts_S4096x4096_S16777216) (broadcastInDim S16777216 ![] bcast_S_S16777216 (constantI S_ 32 16#32)))
    (shapeCast S16777216 codes shapeCasts_S4096x4096_S16777216)

/-- The dequantized weight: the table at each code, each run of 64 entries times its block's scale. -/
def weight (codes : (⟨S4096x4096, .i32⟩ : BufTy).Contents (Elt F)) (absmax : (⟨S262144, .f32⟩ : BufTy).Contents (Elt F)) : (⟨S4096x4096, .f32⟩ : BufTy).Contents (Elt F) :=
  shapeCast S4096x4096
    (mulf (shapeCast S262144x64 (Host.gather gather_S16_S16777216x1_S16777216_n_0_n_n_0_1_1 (table (F := F))
        (broadcastInDim S16777216x1 ![0] bcast_S16777216_S16777216x1_0 (weightCodes codes))) shapeCasts_S16777216_S262144x64)
      (broadcastInDim S262144x64 ![0, 1] bcast_S262144x1_S262144x64_0_1 (broadcastInDim S262144x1 ![0] bcast_S262144_S262144x1_0 absmax)))
    shapeCasts_S262144x64_S4096x4096

/-- The bias's codes, a negative code moved up by sixteen. -/
def biasCodes (codes : (⟨S4096, .i32⟩ : BufTy).Contents (Elt F)) : (⟨S4096, .i32⟩ : BufTy).Contents (Elt F) :=
  select (cmpi .slt codes (broadcastInDim S4096 ![] bcast_S_S4096 (constantI S_ 32 0#32)))
    (addi codes (broadcastInDim S4096 ![] bcast_S_S4096 (constantI S_ 32 16#32)))
    codes

/-- The dequantized bias. -/
def bias (codes : (⟨S4096, .i32⟩ : BufTy).Contents (Elt F)) (absmax : (⟨S64, .f32⟩ : BufTy).Contents (Elt F)) : (⟨S4096, .f32⟩ : BufTy).Contents (Elt F) :=
  shapeCast S4096
    (mulf (shapeCast S64x64 (Host.gather gather_S16_S4096x1_S4096_n_0_n_n_0_1_1 (table (F := F))
        (broadcastInDim S4096x1 ![0] bcast_S4096_S4096x1_0 (biasCodes codes))) shapeCasts_S4096_S64x64)
      (broadcastInDim S64x64 ![0, 1] bcast_S64x1_S64x64_0_1 (broadcastInDim S64x1 ![0] bcast_S64_S64x1_0 absmax)))
    shapeCasts_S64x64_S4096

end Cert.ReferenceIdeal.Hand

end
-- ==== Proof.KernelRun.lean ====
/-
  The kernel program's run, read back, and its result entry by entry.

  Before the launch the host builds the three arrays the kernel reads: the input with its batch and position axes
  merged into 8192 rows, the dequantized weight transposed to features-by-outputs, and the dequantized bias as one
  row (a change of float format is the identity on the extended reals). So at batch `b`, position `s`, output `o` the
  program's result is `∑ₖ x(b, s, k) · W(o, k) + bias(o)` over all 4096 features `k`, with `W` and `bias` the
  dequantized weight and bias.
-/
import proofs.«176535_j70866960384115_1_alg».proof.Proof.KernelValue
import proofs.«176535_j70866960384115_1_alg».proof.Proof.Dequant
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.Spec

variable (m : (ℓ : Loc nD τ sig) → Buf (Elt Ideal) ℓ) (ρ : Dev nD → PrngReg)

/-- The dequantized weight of this program's arguments (outputs by features). -/
abbrev W (c : Dev nD) : FVec Ideal S4096x4096 .f32 :=
  Cert.ReferenceIdeal.Hand.weight (F := Ideal) (m ((c : Thread nD τ).loc main_arg1)) (m ((c : Thread nD τ).loc main_arg2))
/-- The dequantized bias of this program's arguments. -/
abbrev bvec (c : Dev nD) : FVec Ideal S4096 .f32 :=
  Cert.ReferenceIdeal.Hand.bias (F := Ideal) (m ((c : Thread nD τ).loc main_arg3)) (m ((c : Thread nD τ).loc main_arg4))

/-- The input of this program's arguments. -/
abbrev xin (c : Dev nD) : FVec Ideal S4x2048x4096 .f32 := m ((c : Thread nD τ).loc main_arg0)

/-- The left operand the launch finds: the input, batch and position merged into rows. -/
theorem V_x (c : Dev nD) : V m c main_v28
    = truncf (F := Ideal) .bf16 (shapeCast S8192x4096 (m ((c : Thread nD τ).loc main_arg0) : FVec Ideal S4x2048x4096 .f32) shapeCasts_S4x2048x4096_S8192x4096) bitsLt_bf16_f32 := by
  show StableHlo.after hostOps0 (fun b => m (c, b)) (Proc.devRef .tc main_v28) = _
  after_results_simp
  rfl

/-- The right operand the launch finds: the dequantized weight, transposed. -/
theorem V_w (c : Dev nD) : V m c main_v26
    = truncf (F := Ideal) .bf16 (transpose S4096x4096 [1, 0] (W m c) transposes_S4096x4096_S4096x4096_1_0) bitsLt_bf16_f32 := by
  show StableHlo.after hostOps0 (fun b => m (c, b)) (Proc.devRef .tc main_v26) = _
  after_results_simp
  rfl

/-- The bias row the launch finds: the dequantized bias as a one-row matrix. -/
theorem V_b (c : Dev nD) : V m c main_v29 = shapeCast S1x4096 (bvec m c) shapeCasts_S4096_S1x4096 := by
  show StableHlo.after hostOps0 (fun b => m (c, b)) (Proc.devRef .tc main_v29) = _
  after_results_simp
  rfl

/-- Row `b · 2048 + s` of the left operand is the input at batch `b`, position `s`. -/
theorem x_apply (c : Dev nD) (b : Fin 4) (s : Fin 2048) (k : Fin 4096) (r : Fin 8192) (hr : r.val = b.val * 2048 + s.val) :
    V m c main_v28 (ix2 r k) = xin m c (ix3 b s k) := by
  rw [V_x]
  exact shapeCast_apply (xin m c) shapeCasts_S4x2048x4096_S8192x4096 (ix2 r k) (ix3 b s k) (by
    show (S4x2048x4096.rowMajor (ix3 b s k)).val = (S8192x4096.rowMajor (ix2 r k)).val
    rw [Shape.rowMajor_val_three, Shape.rowMajor_val_two]
    show (b.val * 2048 + s.val) * 4096 + k.val = r.val * 4096 + k.val
    rw [hr])

/-- The right operand at (feature k, output n) is the weight at (n, k). -/
theorem w_apply (c : Dev nD) (k n : Fin 4096) : V m c main_v26 (ix2 k n) = W m c (ix2 n k) := by
  rw [V_w]
  exact transpose_ix2_apply (W m c) transposes_S4096x4096_S4096x4096_1_0 k n

/-- The bias row at output n is the bias at n. -/
theorem b_apply (c : Dev nD) (n : Fin 4096) : V m c main_v29 (ix2 (0 : Fin 1) n) = bvec m c (ix1 n) := by
  rw [V_b]
  exact shapeCast_a_1a_apply (bvec m c) shapeCasts_S4096_S1x4096 (0 : Fin 1) n

/-- The kernel program's result, as contents of its result buffer. -/
def result (c : Dev nD) : Buf (Elt Ideal) ((c : Thread nD τ).loc main_v31) :=
  shapeCast S4x2048x4096 (wholeArr m c) shapeCasts_S8192x4096_S4x2048x4096

/-- The kernel program's result at batch `b`, position `s`, output `o`: the contraction over all 4096 features of
    input times weight, plus the bias. The two half contractions re-join by commutativity and associativity of
    addition on the extended reals (`Spec.linear_eq_sum`). -/
theorem result_apply (c : Dev nD) (b : Fin 4) (s : Fin 2048) (o : Fin 4096) :
    result m c (ix3 b s o)
      = (∑ k : Fin 4096, xin m c (ix3 b s k) * W m c (ix2 o k)) + bvec m c (ix1 o) := by
  have hb := b.isLt
  have hs := s.isLt
  obtain ⟨r, hr⟩ : ∃ r : Fin 8192, r.val = b.val * 2048 + s.val := ⟨⟨b.val * 2048 + s.val, by omega⟩, rfl⟩
  have e : result m c (ix3 b s o) = wholeArr m c (ix2 r o) :=
    shapeCast_apply (wholeArr m c) shapeCasts_S8192x4096_S4x2048x4096 (ix3 b s o) (ix2 r o) (by
      show (S8192x4096.rowMajor (ix2 r o)).val = (S4x2048x4096.rowMajor (ix3 b s o)).val
      rw [Shape.rowMajor_val_three, Shape.rowMajor_val_two]
      show r.val * 4096 + o.val = (b.val * 2048 + s.val) * 4096 + o.val
      rw [hr])
  rw [e]
  show linear (V m c main_v28) (V m c main_v26) (V m c main_v29) r o = _
  rw [linear_eq_sum, b_apply]
  refine congrArg (· + bvec m c (ix1 o)) (Finset.sum_congr rfl fun k _ => ?_)
  rw [x_apply m c b s k r hr, w_apply]

/-- Every weakly fair execution of the kernel program terminates with its result buffer at `result` and the
    argument arrays unchanged. -/
theorem run : θ_run defs (onTc (τ := τ) (main (F := Ideal))) ⟨m, fun _ => 0, ρ⟩ fun r => ∀ c : Dev nD,
      r.2.mem ((c.tc : Thread nD τ).loc main_v31) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v31 (Pipeline.mem_restRefs_of main_v31 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Value

end
-- ==== Proof.RefRun.lean ====
/-
  The reference program's run, read back.

  The reference dequantizes the weight and the bias, contracts the input's last axis with the weight's second axis,
  and adds the bias along the last axis. Its thirty-four host operations run one after another; the result buffer
  ends at their composition applied to the argument arrays, stated here through the two dequantized arrays `weight`
  and `bias`.
-/
import proofs.«176535_j70866960384115_1_alg».proof.Proof.Dequant
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's result: the input contracted with the dequantized weight along the feature axis, plus the
    dequantized bias repeated over the batch and sequence axes. -/
def result (x : (⟨S4x2048x4096, .f32⟩ : BufTy).Contents (Elt F)) (wc : (⟨S4096x4096, .i32⟩ : BufTy).Contents (Elt F)) (wa : (⟨S262144, .f32⟩ : BufTy).Contents (Elt F))
    (bc : (⟨S4096, .i32⟩ : BufTy).Contents (Elt F)) (ba : (⟨S64, .f32⟩ : BufTy).Contents (Elt F)) : (⟨S4x2048x4096, .f32⟩ : BufTy).Contents (Elt F) :=
  addf (Host.dotGeneral dot_S4x2048x4096_S4096x4096_S4x2048x4096_2_1_01_0_n_n none x (weight wc wa))
    (broadcastInDim S4x2048x4096 ![0, 1, 2] bcast_S1x1x4096_S4x2048x4096_0_1_2
      (broadcastInDim S1x1x4096 ![2] bcast_S4096_S1x1x4096_2 (bias bc ba)))

/-- The program's thirty-four host operations, in order. -/
abbrev ops : List (HloOp τ sig (Elt F)) :=
  [ nullary main_cst (fun i => FloatOps.ofBits .f32 (lit0 (S16.rowMajor i))),
    reshape main_arg1 main_v0 rfl shapeCasts_S4096x4096_S16777216,
    nullary main_c (constantI S_ 32 0#32),
    unary main_c main_v1 (broadcastInDim S16777216 ![] bcast_S_S16777216 : (⟨S_, .i32⟩ : BufTy).Contents (Elt F) → (⟨S16777216, .i32⟩ : BufTy).Contents (Elt F)),
    binary main_v0 main_v1 main_v2 (cmpi .slt : (⟨S16777216, .i32⟩ : BufTy).Contents (Elt F) → (⟨S16777216, .i32⟩ : BufTy).Contents (Elt F) → (⟨S16777216, .i1⟩ : BufTy).Contents (Elt F)),
    nullary main_c_0 (constantI S_ 32 16#32),
    unary main_c_0 main_v3 (broadcastInDim S16777216 ![] bcast_S_S16777216 : (⟨S_, .i32⟩ : BufTy).Contents (Elt F) → (⟨S16777216, .i32⟩ : BufTy).Contents (Elt F)),
    binary main_v0 main_v3 main_v4 (addi : (⟨S16777216, .i32⟩ : BufTy).Contents (Elt F) → (⟨S16777216, .i32⟩ : BufTy).Contents (Elt F) → (⟨S16777216, .i32⟩ : BufTy).Contents (Elt F)),
    ternary main_v2 main_v4 main_v0 main_v5 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v5 main_v6 (broadcastInDim S16777216x1 ![0] bcast_S16777216_S16777216x1_0 : (⟨S16777216, .i32⟩ : BufTy).Contents (Elt F) → (⟨S16777216x1, .i32⟩ : BufTy).Contents (Elt F)),
    binary main_cst main_v6 main_v7 ((fun x i => Host.gather gather_S16_S16777216x1_S16777216_n_0_n_n_0_1_1 x i) : (⟨S16, .f32⟩ : BufTy).Contents (Elt F) → (⟨S16777216x1, .i32⟩ : BufTy).Contents (Elt F) → (⟨S16777216, .f32⟩ : BufTy).Contents (Elt F)),
    reshape main_v7 main_v8 rfl shapeCasts_S16777216_S262144x64,
    unary main_arg2 main_v9 (broadcastInDim S262144x1 ![0] bcast_S262144_S262144x1_0 : (⟨S262144, .f32⟩ : BufTy).Contents (Elt F) → (⟨S262144x1, .f32⟩ : BufTy).Contents (Elt F)),
    unary main_v9 main_v10 (broadcastInDim S262144x64 ![0, 1] bcast_S262144x1_S262144x64_0_1 : (⟨S262144x1, .f32⟩ : BufTy).Contents (Elt F) → (⟨S262144x64, .f32⟩ : BufTy).Contents (Elt F)),
    binary main_v8 main_v10 main_v11 (mulf : (⟨S262144x64, .f32⟩ : BufTy).Contents (Elt F) → (⟨S262144x64, .f32⟩ : BufTy).Contents (Elt F) → (⟨S262144x64, .f32⟩ : BufTy).Contents (Elt F)),
    reshape main_v11 main_v12 rfl shapeCasts_S262144x64_S4096x4096,
    nullary main_c_1 (constantI S_ 32 0#32),
    unary main_c_1 main_v13 (broadcastInDim S4096 ![] bcast_S_S4096 : (⟨S_, .i32⟩ : BufTy).Contents (Elt F) → (⟨S4096, .i32⟩ : BufTy).Contents (Elt F)),
    binary main_arg3 main_v13 main_v14 (cmpi .slt : (⟨S4096, .i32⟩ : BufTy).Contents (Elt F) → (⟨S4096, .i32⟩ : BufTy).Contents (Elt F) → (⟨S4096, .i1⟩ : BufTy).Contents (Elt F)),
    nullary main_c_2 (constantI S_ 32 16#32),
    unary main_c_2 main_v15 (broadcastInDim S4096 ![] bcast_S_S4096 : (⟨S_, .i32⟩ : BufTy).Contents (Elt F) → (⟨S4096, .i32⟩ : BufTy).Contents (Elt F)),
    binary main_arg3 main_v15 main_v16 (addi : (⟨S4096, .i32⟩ : BufTy).Contents (Elt F) → (⟨S4096, .i32⟩ : BufTy).Contents (Elt F) → (⟨S4096, .i32⟩ : BufTy).Contents (Elt F)),
    ternary main_v14 main_v16 main_arg3 main_v17 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v17 main_v18 (broadcastInDim S4096x1 ![0] bcast_S4096_S4096x1_0 : (⟨S4096, .i32⟩ : BufTy).Contents (Elt F) → (⟨S4096x1, .i32⟩ : BufTy).Contents (Elt F)),
    binary main_cst main_v18 main_v19 ((fun x i => Host.gather gather_S16_S4096x1_S4096_n_0_n_n_0_1_1 x i) : (⟨S16, .f32⟩ : BufTy).Contents (Elt F) → (⟨S4096x1, .i32⟩ : BufTy).Contents (Elt F) → (⟨S4096, .f32⟩ : BufTy).Contents (Elt F)),
    reshape main_v19 main_v20 rfl shapeCasts_S4096_S64x64,
    unary main_arg4 main_v21 (broadcastInDim S64x1 ![0] bcast_S64_S64x1_0 : (⟨S64, .f32⟩ : BufTy).Contents (Elt F) → (⟨S64x1, .f32⟩ : BufTy).Contents (Elt F)),
    unary main_v21 main_v22 (broadcastInDim S64x64 ![0, 1] bcast_S64x1_S64x64_0_1 : (⟨S64x1, .f32⟩ : BufTy).Contents (Elt F) → (⟨S64x64, .f32⟩ : BufTy).Contents (Elt F)),
    binary main_v20 main_v22 main_v23 (mulf : (⟨S64x64, .f32⟩ : BufTy).Contents (Elt F) → (⟨S64x64, .f32⟩ : BufTy).Contents (Elt F) → (⟨S64x64, .f32⟩ : BufTy).Contents (Elt F)),
    reshape main_v23 main_v24 rfl shapeCasts_S64x64_S4096,
    binary main_arg0 main_v12 main_v25 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_v24 main_v26 (broadcastInDim S1x1x4096 ![2] bcast_S4096_S1x1x4096_2 : (⟨S4096, .f32⟩ : BufTy).Contents (Elt F) → (⟨S1x1x4096, .f32⟩ : BufTy).Contents (Elt F)),
    unary main_v26 main_v27 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v25 main_v27 main_v28 (addf : (⟨S4x2048x4096, .f32⟩ : BufTy).Contents (Elt F) → (⟨S4x2048x4096, .f32⟩ : BufTy).Contents (Elt F) → (⟨S4x2048x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [List.Forall]
  refine ⟨nullary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., reshape_bufs_sub .., binary_bufs_sub .., unary_bufs_sub .., unary_bufs_sub .., binary_bufs_sub ..⟩

/-- Every weakly fair execution of the reference terminates with the result buffer at `result` of the argument
    arrays, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v28).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp)⟩)
    (run_seq scopedRefs_eq scopedSems_eq defs main (fun _ => ops) main_eq (fun _ => ops_sub) m ρ)

end Cert.ReferenceIdeal.Hand

end
-- ==== Proof.RefRead.lean ====
/-
  The reference's result read at one entry, on the extended reals.

  At batch `b`, position `s`, output `o` the reference holds `∑ₖ x(b, s, k) · W(o, k) + bias(o)` over the 4096
  features `k`, with `W` the dequantized weight (outputs by features) and `bias` the dequantized bias: its
  `dot_general` contracts the input's last axis with the weight's second axis, and the bias vector is put on the last
  axis and repeated over the first two.
-/
import proofs.«176535_j70866960384115_1_alg».proof.Proof.RefRun
import Idealize.ShloMosaic.PureOps.Ideal.Laws
import Idealize.ShloMosaic.Lib.ValueIdx
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx

/-- The contraction's left index at output (b, s, o) and feature k is (b, s, k). -/
theorem lhs_at (b : Fin 4) (s : Fin 2048) (o k : Fin 4096) :
    dot_S4x2048x4096_S4096x4096_S4x2048x4096_2_1_01_0_n_n.lhsIdx (ix3 b s o)
        ((contrEquiv1 dot_S4x2048x4096_S4096x4096_S4x2048x4096_2_1_01_0_n_n 4096 rfl rfl).symm k) = ix3 b s k := by
  have hk := contrEquiv1_symm_val dot_S4x2048x4096_S4096x4096_S4x2048x4096_2_1_01_0_n_n 4096 rfl rfl k
  exact funext fun a => Fin.ext (by
    match a with
    | ⟨0, _⟩ => rfl
    | ⟨1, _⟩ => rfl
    | ⟨2, _⟩ => exact (dot_S4x2048x4096_S4096x4096_S4x2048x4096_2_1_01_0_n_n.lhsIdx_val_of_single rfl _ _).trans hk)

/-- The contraction's right index at output (b, s, o) and feature k is (o, k). -/
theorem rhs_at (b : Fin 4) (s : Fin 2048) (o k : Fin 4096) :
    dot_S4x2048x4096_S4096x4096_S4x2048x4096_2_1_01_0_n_n.rhsIdx (ix3 b s o)
        ((contrEquiv1 dot_S4x2048x4096_S4096x4096_S4x2048x4096_2_1_01_0_n_n 4096 rfl rfl).symm k) = ix2 o k := by
  have hk := contrEquiv1_symm_val dot_S4x2048x4096_S4096x4096_S4x2048x4096_2_1_01_0_n_n 4096 rfl rfl k
  exact funext fun a => Fin.ext (by
    match a with
    | ⟨0, _⟩ => rfl
    | ⟨1, _⟩ => exact (dot_S4x2048x4096_S4096x4096_S4x2048x4096_2_1_01_0_n_n.rhsIdx_val_of_single rfl _ _).trans hk)

/-- The reference's contraction at (b, s, o): the sum over the features of input times weight. -/
theorem dot_apply (x : FVec Ideal S4x2048x4096 .f32) (w : FVec Ideal S4096x4096 .f32) (b : Fin 4) (s : Fin 2048) (o : Fin 4096) :
    Host.dotGeneral dot_S4x2048x4096_S4096x4096_S4x2048x4096_2_1_01_0_n_n none x w (ix3 b s o)
      = ∑ k : Fin 4096, x (ix3 b s k) * w (ix2 o k) := by
  show FloatOps.dotGeneral dot_S4x2048x4096_S4096x4096_S4x2048x4096_2_1_01_0_n_n none .single x w (ix3 b s o) = _
  rw [Ideal.dotGeneral_apply,
    ← Equiv.sum_comp (contrEquiv1 dot_S4x2048x4096_S4096x4096_S4x2048x4096_2_1_01_0_n_n 4096 rfl rfl).symm]
  refine Finset.sum_congr rfl fun k _ => ?_
  rw [lhs_at, rhs_at]

/-- A vector put on the last axis and repeated over the first two reads, at (b, s, o), its entry o. -/
theorem bias_spread_apply (v : FVec Ideal S4096 .f32) (b : Fin 4) (s : Fin 2048) (o : Fin 4096) :
    broadcastInDim S4x2048x4096 ![0, 1, 2] bcast_S1x1x4096_S4x2048x4096_0_1_2
      (broadcastInDim S1x1x4096 ![2] bcast_S4096_S1x1x4096_2 v) (ix3 b s o) = v (ix1 o) := by
  refine (broadcastInDim_apply _ _ _ (ix3 b s o) (ix3 (0 : Fin 1) (0 : Fin 1) o) fun a => ?_).trans ?_
  · match a with
    | ⟨0, _⟩ => rfl
    | ⟨1, _⟩ => rfl
    | ⟨2, _⟩ => rfl
  · refine broadcastInDim_apply _ _ _ (ix3 (0 : Fin 1) (0 : Fin 1) o) (ix1 o) fun a => ?_
    match a with
    | ⟨0, _⟩ => rfl

/-- The reference's result at (b, s, o). -/
theorem result_apply (x : FVec Ideal S4x2048x4096 .f32) (wc : IVec S4096x4096 32) (wa : FVec Ideal S262144 .f32)
    (bc : IVec S4096 32) (ba : FVec Ideal S64 .f32) (b : Fin 4) (s : Fin 2048) (o : Fin 4096) :
    result (F := Ideal) x wc wa bc ba (ix3 b s o)
      = (∑ k : Fin 4096, x (ix3 b s k) * weight (F := Ideal) wc wa (ix2 o k)) + bias (F := Ideal) bc ba (ix1 o) := by
  unfold result
  exact congrArg₂ (· + ·) (dot_apply x (weight (F := Ideal) wc wa) b s o) (bias_spread_apply (bias (F := Ideal) bc ba) b s o)

end Cert.ReferenceIdeal.Hand

end
-- ==== Proof.lean ====
/-
  A linear layer with a quantized weight and bias: the blocked kernel against `x · Wᵀ + b`.

  Both programs dequantize the weight `W` (outputs by features) and the bias `b` by the same host operations. The
  reference contracts the input `x` (batch × position × features) with `W` over all 4096 features at once and adds
  `b`. The kernel merges batch and position into 8192 rows, transposes `W`, and for every 1024 × 1024 block of the
  result runs two contraction steps of 2048 features each — the first into a cleared accumulator, the second on top of
  it — before adding the bias columns and writing the block back; the host reshapes the result to
  batch × position × output. Read on the extended reals, where a change of float format is the identity and every
  operation is exact, both results are `∑ₖ x(b, s, k) · W(o, k) + b(o)` at every entry: splitting the sum over the
  features into its two halves only uses that addition is commutative and associative with `0` neutral, which holds
  at the infinities too, so the finiteness of the inputs is never needed. The ideal pass rewrote no operation of the
  kernel, so that conjunct is `True`.
-/
import proofs.«176535_j70866960384115_1_alg».proof.Defs
import proofs.«176535_j70866960384115_1_alg».proof.Proof.Gen.Kernel
import proofs.«176535_j70866960384115_1_alg».proof.Proof.Gen.Kernel.Frame
import proofs.«176535_j70866960384115_1_alg».proof.Proof.Gen.KernelIdeal
import proofs.«176535_j70866960384115_1_alg».proof.Proof.Gen.KernelIdeal.Frame
import proofs.«176535_j70866960384115_1_alg».proof.Proof.Gen.ReferenceIdeal
import proofs.«176535_j70866960384115_1_alg».proof.Proof.Gen.Pre_finite_inputs
import proofs.«176535_j70866960384115_1_alg».proof.Proof.KernelRun
import proofs.«176535_j70866960384115_1_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel program as printed runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- No operation of the kernel was rewritten. -/
theorem preserves : Cert.preserves_Kernel_KernelIdeal := trivial

/-- On the same arguments the reference's result is the kernel program's, entry by entry: both are the contraction
    over all features of input times dequantized weight, plus the dequantized bias. -/
theorem results_agree (m : (ℓ : Loc Cert.KernelIdeal.nD Cert.KernelIdeal.τ Cert.KernelIdeal.sig) → Buf (Elt Ideal) ℓ)
    (c : Dev Cert.KernelIdeal.nD) :
    Cert.ReferenceIdeal.Hand.result (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Value.result m c := by
  funext j
  obtain ⟨b, s, o, rfl⟩ : ∃ (b : Fin 4) (s : Fin 2048) (o : Fin 4096), j = ix3 b s o := ⟨j 0, j 1, j 2, eq_ix3 j⟩
  exact (Cert.ReferenceIdeal.Hand.result_apply _ _ _ _ _ b s o).trans (Cert.KernelIdeal.Value.result_apply m c b s o).symm

/-- From memories that agree on the arguments both programs run and end with equal results. -/
theorem algebraic : Cert.algebraic_KernelIdeal_ReferenceIdeal := by
  intro m ρ m' ρ' _ hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2]
  exact results_agree m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
